-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x11008 : Shape := ⟨3, ![1, 2048, 11008]⟩
abbrev S4096x11008 : Shape := ⟨2, ![4096, 11008]⟩
abbrev S_ : Shape := ⟨0, ![]⟩

class Facts : Prop where
  bcast_S_S1x2048x11008 : S_.BroadcastsInDim S1x2048x11008 (![] : Fin 0 → Fin S1x2048x11008.rank)
  reducesTo_S1x2048x11008_S_d0_1_2 : S1x2048x11008.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S1x2048x11008 .f32) (main_arg1 : FVec F S4096x11008 .f32) : IVec S_ 1 :=
  let main_v0 : FVec F S1x2048x11008 .f32 := Host.absf main_arg0
  let main_cst : FVec F S_ .f32 := constant S_ .f32 0x7F800000#32
  let main_v1 : FVec F S1x2048x11008 .f32 := broadcastInDim S1x2048x11008 ![] bcast_S_S1x2048x11008 main_cst
  let main_v2 : IVec S1x2048x11008 1 := cmpf .olt main_v0 main_v1
  let main_c : IVec S_ 1 := constantI S_ 1 1#1
  let main_v3 : IVec S_ 1 := (fun x v => Host.reduce IntOp.andi x v reducesTo_S1x2048x11008_S_d0_1_2 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  main_v8
-- ==== Kernel.lean ====
abbrev S1x2048x11008 : Shape := ⟨3, ![1, 2048, 11008]⟩
abbrev S4096x11008 : Shape := ⟨2, ![4096, 11008]⟩
abbrev S2048x11008 : Shape := ⟨2, ![2048, 11008]⟩
abbrev S1x11008 : Shape := ⟨2, ![1, 11008]⟩
abbrev S2048x256 : Shape := ⟨2, ![2048, 256]⟩
abbrev S1x256 : Shape := ⟨2, ![1, 256]⟩
abbrev S256 : Shape := ⟨1, ![256]⟩
abbrev S11008 : Shape := ⟨1, ![11008]⟩
abbrev S2048x4096 : Shape := ⟨2, ![2048, 4096]⟩
abbrev S512x11008 : Shape := ⟨2, ![512, 11008]⟩
abbrev S256x11008 : Shape := ⟨2, ![256, 11008]⟩
abbrev S512x256 : Shape := ⟨2, ![512, 256]⟩
abbrev S1x2048x4096 : Shape := ⟨3, ![1, 2048, 4096]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S1x2048x11008, .f32⟩
  | .hbm, ⟨1, _⟩ => ⟨S4096x11008, .f32⟩
  | .hbm, ⟨2, _⟩ => ⟨S2048x11008, .f32⟩
  | .hbm, ⟨3, _⟩ => ⟨S2048x11008, .bf16⟩
  | .hbm, ⟨4, _⟩ => ⟨S1x11008, .f32⟩
  | .hbm, ⟨5, _⟩ => ⟨S11008, .f32⟩
  | .hbm, ⟨6, _⟩ => ⟨S4096x11008, .bf16⟩
  | .hbm, ⟨7, _⟩ => ⟨S2048x4096, .f32⟩
  | .hbm, ⟨8, _⟩ => ⟨S1x2048x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S11008, .f32⟩
  | .hbm, ⟨17, _⟩ => ⟨S11008, .i1⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | .local _ .vmem, ⟨4, _⟩ => ⟨S1x256, .f32⟩
  | .local _ .vmem, ⟨5, _⟩ => ⟨S1x256, .f32⟩
  | .local _ .vmem, ⟨6, _⟩ => ⟨S512x11008, .bf16⟩
  | .local _ .vmem, ⟨7, _⟩ => ⟨S512x11008, .bf16⟩
  | .local _ .vmem, ⟨8, _⟩ => ⟨S256x11008, .bf16⟩
  | .local _ .vmem, ⟨9, _⟩ => ⟨S256x11008, .bf16⟩
  | .local _ .vmem, ⟨10, _⟩ => ⟨S512x256, .f32⟩
  | .local _ .vmem, ⟨11, _⟩ => ⟨S512x256, .f32⟩
  | _, _ => ⟨S1x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x11008 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x11008 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S1x2048x11008_S2048x11008 : S1x2048x11008.ShapeCasts S2048x11008
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  natLt_1_32 : 1 < 32
  reduces_S2048x256_S256 : S2048x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x11008_S11008 : S1x11008.ShapeCasts S11008
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x256_S512x256_0_0 : ∀ a, (![0, 0] : Fin 2 → Nat) a + S512x256.size a ≤ S512x256.size a
  h_S512x256 : 0 < S512x256.numel
  bcast_S2048x4096_S1x2048x4096_1_2 : S2048x4096.BroadcastsInDim S1x2048x4096 (![1, 2] : Fin 2 → Fin S1x2048x4096.rank)
  reducesTo_S11008_S_d0 : S11008.ReducesTo [0] S_
  h_S_ : 0 < S_.numel
  bcast_S_S11008 : S_.BroadcastsInDim S11008 (![] : Fin 0 → Fin S11008.rank)
  dot_S512x11008_S256x11008_S512x256_1_1_0_0_n_n_wf : DotDims.WF S512x11008 S256x11008 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x11008.size a
  hwx0_0 : ∀ i : grid0.Coords, EltTy.bits .f32 = 32 ∨ (Rect.block (s := S2048x11008) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x11008.size a
  hwx0_1 : ∀ i : grid0.Coords, EltTy.bits .bf16 = 32 ∨ (Rect.block (s := S2048x11008) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x11008.size a ≤ S2048x11008.size a
  hwx1_0 : ∀ i : grid1.Coords, EltTy.bits .bf16 = 32 ∨ (Rect.block (s := S2048x11008) S512x11008.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x11008.size a ≤ S4096x11008.size a
  hwx1_1 : ∀ i : grid1.Coords, EltTy.bits .bf16 = 32 ∨ (Rect.block (s := S4096x11008) S256x11008.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S2048x4096.size a
  hwx1_2 : ∀ i : grid1.Coords, EltTy.bits .f32 = 32 ∨ (Rect.block (s := S2048x4096) S512x256.size (cc1_transform_2 i) (hinb1_2 i)).WholeWords (EltTy.packing .f32)

variable [Facts₀]

def dot_S512x11008_S256x11008_S512x256_1_1_0_0_n_n : DotDims S512x11008 S256x11008 S512x256 where
  lhsContracting := [1]
  rhsContracting := [1]
  lhsNonContracting := [0]
  rhsNonContracting := [0]
  lhsBatch := []
  rhsBatch := []
  wf := dot_S512x11008_S256x11008_S512x256_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S2048x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S512x11008.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S256x11008.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x2048x11008 : Shape := ⟨3, ![1, 2048, 11008]⟩
abbrev S4096x11008 : Shape := ⟨2, ![4096, 11008]⟩
abbrev S1x2048x4096 : Shape := ⟨3, ![1, 2048, 4096]⟩
abbrev S2048x11008 : Shape := ⟨2, ![2048, 11008]⟩
abbrev S_ : Shape := ⟨0, ![]⟩
abbrev S11008 : Shape := ⟨1, ![11008]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x11008, .f32⟩
  | .hbm, ⟨1, _⟩ => ⟨S4096x11008, .f32⟩
  | .hbm, ⟨2, _⟩ => ⟨S1x2048x4096, .f32⟩
  | .hbm, ⟨3, _⟩ => ⟨S2048x11008, .f32⟩
  | .hbm, ⟨4, _⟩ => ⟨S_, .f32⟩
  | .hbm, ⟨5, _⟩ => ⟨S2048x11008, .f32⟩
  | .hbm, ⟨6, _⟩ => ⟨S2048x11008, .f32⟩
  | .hbm, ⟨7, _⟩ => ⟨S_, .f32⟩
  | .hbm, ⟨8, _⟩ => ⟨S11008, .f32⟩
  | .hbm, ⟨9, _⟩ => ⟨S_, .f32⟩
  | .hbm, ⟨10, _⟩ => ⟨S2048x11008, .f32⟩
  | .hbm, ⟨11, _⟩ => ⟨S2048x11008, .i1⟩
  | .hbm, ⟨12, _⟩ => ⟨S2048x11008, .i32⟩
  | .hbm, ⟨13, _⟩ => ⟨S_, .i32⟩
  | .hbm, ⟨14, _⟩ => ⟨S11008, .i32⟩
  | .hbm, ⟨15, _⟩ => ⟨S11008, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S11008, .f32⟩
  | .hbm, ⟨24, _⟩ => ⟨S11008, .i1⟩
  | _, _ => ⟨S1x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  shapeCasts_S1x2048x11008_S2048x11008 : S1x2048x11008.ShapeCasts S2048x11008
  bcast_S_S2048x11008 : S_.BroadcastsInDim S2048x11008 (![] : Fin 0 → Fin S2048x11008.rank)
  reducesTo_S2048x11008_S11008_d0 : S2048x11008.ReducesTo [0] S11008
  h_S_ : 0 < S_.numel
  natLt_1_32 : 1 < 32
  reducesTo_S11008_S_d0 : S11008.ReducesTo [0] S_
  bcast_S_S11008 : S_.BroadcastsInDim S11008 (![] : Fin 0 → Fin S11008.rank)
  dot_S1x2048x11008_S4096x11008_S1x2048x4096_2_1_01_0_n_n_wf : DotDims.WF S1x2048x11008 S4096x11008 S1x2048x4096 [2] [1] [0, 1] [0] [] []

variable [Facts₀]

def dot_S1x2048x11008_S4096x11008_S1x2048x4096_2_1_01_0_n_n : DotDims S1x2048x11008 S4096x11008 S1x2048x4096 where
  lhsContracting := [2]
  rhsContracting := [1]
  lhsNonContracting := [0, 1]
  rhsNonContracting := [0]
  lhsBatch := []
  rhsBatch := []
  wf := dot_S1x2048x11008_S4096x11008_S1x2048x4096_2_1_01_0_n_n_wf

class Facts : Prop extends Facts₀ where

variable [Facts]
-- ==== Proof.KernelRun.lean ====
/-
  The idealized kernel's run, with its two result arrays named.

  @main is five segments: one host reshape, the cast-and-count region, two host operations, the matmul region, and a
  tail of ten host operations. Every weakly fair execution terminates, and at the end each unscoped buffer of a core
  holds the launch memory folded through those five segments (`Gen.W5`): a host stretch applies its operations in
  order, a region replaces its output arrays by what its write-backs leave and keeps every other buffer. The frame
  claim reads only the two argument arrays off that final state; here the two RESULT arrays are read off it as well,
  so that their contents can be computed from the fold.
-/
import proofs.«168756_j10806137716759_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the product array `main_v5` and the mask
    `main_v11` end at the fold `W5` of the launch memory through the five segments, and the two arguments end as
    launched. The last thread state holds every unscoped buffer at `W5`; it is read against the final memory, and the
    four buffers of interest are among the unscoped ones. -/
theorem run_results : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       h c _ (mem_uc main_v11 (by decide)),
       (h c _ (mem_uc main_arg0 (by decide))).trans (W5_main_arg0 m ρ c),
       (h c _ (mem_uc main_arg1 (by decide))).trans (W5_main_arg1 m ρ c)⟩)

end Cert.KernelIdeal.Results

end
-- ==== Proof.HostFold.lean ====
/-
  The host side of the idealized kernel's fold, read at the buffers that matter.

  Region 0 (cast and count) finds the rank-2 view of x in `main_v0`; region 1 (matmul) finds region 0's cast output in
  `main_v1_0` and the cast of W in `main_v3`. After region 1 the product array gets a leading unit axis, and the
  mask is computed from region 0's count row by a tail of host operations: sum the counts, divide by 11008,
  multiply by 0.95, floor, broadcast, compare. That tail is carried as ONE function `maskOf` of the count vector and
  never opened: the reference applies the same operations to its own count vector.
-/
import proofs.«168756_j10806137716759_2_alg».proof.Proof.Gen.KernelIdeal.Frame
import Idealize.ShloMosaic.Lib.StableHlo.Run

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable {F : FTy → Type} [FloatOps F]

/-- The mask as a function of the per-neuron count vector: `counts > floor (mean counts · 0.95)`, the mean a
    host sum divided by 11008, every operation as the host applies it. -/
def maskOf (cnt : (⟨S11008, .f32⟩ : BufTy).Contents (Elt F)) : (⟨S11008, .i1⟩ : BufTy).Contents (Elt F) :=
  cmpf (F := F) .ogt cnt (broadcastInDim S11008 ![] bcast_S_S11008
    (Host.floor (F := F) (mulf (F := F) (Host.divf (F := F) (Host.reduceAdd (F := F) cnt (constant (F := F) S_ .f32 0x00000000#32) reducesTo_S11008_S_d0 h_S_)
      (constant (F := F) S_ .f32 0x462C0000#32)) (constant (F := F) S_ .f32 0x3F733333#32))))

variable (m : (ℓ : Loc nD τ sig) → Buf (Elt F) ℓ) (ρ : Dev nD → PrngReg)

/-- Region 0 finds x with its unit batch axis dropped. -/
theorem entry0_x (c : Dev nD) :
    (V1 m ρ c main_v0 : (⟨S2048x11008, .f32⟩ : BufTy).Contents (Elt F))
      = shapeCast S2048x11008 (m ((c : Thread nD τ).loc main_arg0)) shapeCasts_S1x2048x11008_S2048x11008 := by
  show StableHlo.after hostOps0 (W0 m ρ c) (Proc.devRef .tc main_v0) = _
  after_results
  rfl

/-- Region 1 finds, as its left operand, what region 0's write-backs left in the cast array. -/
theorem entry1_x (c : Dev nD) :
    (V3 m ρ c main_v1_0 : (⟨S2048x11008, .bf16⟩ : BufTy).Contents (Elt F)) = (dat0 (V1 m ρ) c).arrAt 1 cfg0.N := by
  show StableHlo.after hostOps1 (W2 m ρ c) (Proc.devRef .tc main_v1_0) = _
  after_results
  exact W2_arr m ρ c 1

/-- Region 1 finds, as its right operand, the host's cast of W. -/
theorem entry1_w (c : Dev nD) :
    (V3 m ρ c main_v3 : (⟨S4096x11008, .bf16⟩ : BufTy).Contents (Elt F))
      = truncf .bf16 (m ((c : Thread nD τ).loc main_arg1)) bitsLt_bf16_f32 := by
  show StableHlo.after hostOps1 (W2 m ρ c) (Proc.devRef .tc main_v3) = _
  after_results
  rw [W2_of_ne m ρ c main_arg1 (by decide)]
  show truncf .bf16 (StableHlo.after hostOps0 (W0 m ρ c) (Proc.devRef .tc main_arg1)) _ = _
  after_results

/-- The first result: region 1's output array under a leading unit axis. -/
theorem W5_product (c : Dev nD) :
    (W5 m ρ c (Proc.devRef .tc main_v5) : (⟨S1x2048x4096, .f32⟩ : BufTy).Contents (Elt F))
      = broadcastInDim S1x2048x4096 ![1, 2] bcast_S2048x4096_S1x2048x4096_1_2 ((dat1 (V3 m ρ) c).arrAt 2 cfg1.N) := by
  show StableHlo.after hostOps2 (W4 m ρ c) (Proc.devRef .tc main_v5) = _
  after_results
  exact congrArg _ (W4_arr m ρ c 2)

/-- The count vector the tail reads: region 0's count row with its unit axis dropped (region 1 and the two host
    operations between the regions leave it alone). -/
theorem W4_counts (c : Dev nD) :
    (W4 m ρ c (Proc.devRef .tc main_v2) : (⟨S11008, .f32⟩ : BufTy).Contents (Elt F))
      = shapeCast S11008 ((dat0 (V1 m ρ) c).arrAt 2 cfg0.N) shapeCasts_S1x11008_S11008 := by
  rw [W4_of_ne m ρ c main_v2 (by decide)]
  show StableHlo.after hostOps1 (W2 m ρ c) (Proc.devRef .tc main_v2) = _
  after_results
  exact congrArg (fun v => shapeCast S11008 v shapeCasts_S1x11008_S11008) (W2_arr m ρ c 2)

/-- The second result: the mask of that count vector. -/
theorem W5_mask (c : Dev nD) :
    (W5 m ρ c (Proc.devRef .tc main_v11) : (⟨S11008, .i1⟩ : BufTy).Contents (Elt F))
      = maskOf (shapeCast S11008 ((dat0 (V1 m ρ) c).arrAt 2 cfg0.N) shapeCasts_S1x11008_S11008) := by
  show StableHlo.after hostOps2 (W4 m ρ c) (Proc.devRef .tc main_v11) = _
  after_results
  rw [W4_counts m ρ c]
  rfl

end Cert.KernelIdeal.Results

end
-- ==== Proof.Matmul.lean ====
/-
  Region 1, the matmul: its output array as ONE function of the two operand arrays it finds.

  The grid is 4 × 16. At point (p, q) the body loads rows 512p … 512p+511 of the left array (all 11008 columns) and
  rows 256q … 256q+255 of the right array, and stores their product contracted over the 11008 columns, accumulated
  into zero, into the 512 × 256 block (p, q) of the output. Every output block is written by exactly one point and the
  blocks tile the 2048 × 4096 output, so entry (s, d) of the output is ∑ₖ left (s, k) · right (d, k): at the ideal
  values the matmul unit's result is that plain sum, with no chunking or rounding left in it.
-/
import proofs.«168756_j10806137716759_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Results

open Cert.KernelIdeal Cert.KernelIdeal.Gen
open Idealize.ShloMosaic Idealize.ShloMosaic.TcCoe Idealize.SL.Sem
open Idealize.ShloMosaic.Pipeline (Dat)

/-- The body's contraction record: left [512, 11008] and right [256, 11008] contracted over their second axes. -/
abbrev mmDims := dot_S512x11008_S256x11008_S512x256_1_1_0_0_n_n

/-- Inside a point's blocks: row `j 0` of the left block and row `j 1` of the right block, at column `k`. -/
abbrev blkL (j : S512x256.Idx) (k : Fin 11008) : S512x11008.Idx := fun a => match a with
  | ⟨0, _⟩ => ⟨(j 0).val, (j 0).isLt⟩
  | ⟨1, _⟩ => ⟨k.val, k.isLt⟩
abbrev blkR (j : S512x256.Idx) (k : Fin 11008) : S256x11008.Idx := fun a => match a with
  | ⟨0, _⟩ => ⟨(j 1).val, (j 1).isLt⟩
  | ⟨1, _⟩ => ⟨k.val, k.isLt⟩

/-- In the whole arrays: row `i 0` of the left array and row `i 1` of the right array, at column `k`. -/
abbrev rowL (i : S2048x4096.Idx) (k : Fin 11008) : S2048x11008.Idx := fun a => match a with
  | ⟨0, _⟩ => ⟨(i 0).val, (i 0).isLt⟩
  | ⟨1, _⟩ => ⟨k.val, k.isLt⟩
abbrev rowR (i : S2048x4096.Idx) (k : Fin 11008) : S4096x11008.Idx := fun a => match a with
  | ⟨0, _⟩ => ⟨(i 1).val, (i 1).isLt⟩
  | ⟨1, _⟩ => ⟨k.val, k.isLt⟩

/-- The contraction's operand indices at output index `j`: the left one keeps `j`'s row, the right one `j`'s column,
    and both take the contraction coordinate as their column. -/
theorem mm_lhs0 (j : S512x256.Idx) (q : mmDims.contr.Idx) : (mmDims.lhsIdx j q 0).val = (j 0).val := by
  unfold DotDims.lhsIdx
  rw [dif_neg (show ¬(0 : Fin S512x11008.rank) ∈ mmDims.lhsBatch by decide), dif_pos (show (0 : Fin S512x11008.rank) ∈ mmDims.lhsNonContracting by decide)]
  rfl
theorem mm_lhs1 (j : S512x256.Idx) (q : mmDims.contr.Idx) : (mmDims.lhsIdx j q 1).val = (q ⟨0, by decide⟩).val :=
  mmDims.lhsIdx_val_of_single rfl j q
theorem mm_rhs0 (j : S512x256.Idx) (q : mmDims.contr.Idx) : (mmDims.rhsIdx j q 0).val = (j 1).val := by
  unfold DotDims.rhsIdx
  rw [dif_neg (show ¬(0 : Fin S256x11008.rank) ∈ mmDims.rhsBatch by decide), dif_pos (show (0 : Fin S256x11008.rank) ∈ mmDims.rhsNonContracting by decide)]
  rfl
theorem mm_rhs1 (j : S512x256.Idx) (q : mmDims.contr.Idx) : (mmDims.rhsIdx j q 1).val = (q ⟨0, by decide⟩).val :=
  mmDims.rhsIdx_val_of_single rfl j q

/-- The body's stored value at an index of the block: the sum over the 11008 columns of the products of the two loaded
    blocks' rows. -/
theorem pay_matmul (x0 : FVec Ideal S512x11008 .bf16) (x1 : FVec Ideal S256x11008 .bf16) (j : S512x256.Idx) :
    k1_pay1 (F := Ideal) x0 x1 j = ∑ k : Fin 11008, x0 (blkL j k) * x1 (blkR j k) := by
  unfold k1_pay1
  refine (Ideal.matmul_constant_zero_apply mmDims none _ _ j).trans ?_
  rw [← Equiv.sum_comp (ValueIdx.contrEquiv1 mmDims 11008 rfl rfl).symm]
  refine Finset.sum_congr rfl fun k _ => ?_
  have hk := ValueIdx.contrEquiv1_symm_val mmDims 11008 rfl rfl k
  have el : mmDims.lhsIdx j ((ValueIdx.contrEquiv1 mmDims 11008 rfl rfl).symm k) = blkL j k := funext fun a => Fin.ext (by
    match a with
    | ⟨0, _⟩ => exact mm_lhs0 _ _
    | ⟨1, _⟩ => exact (mm_lhs1 _ _).trans hk)
  have er : mmDims.rhsIdx j ((ValueIdx.contrEquiv1 mmDims 11008 rfl rfl).symm k) = blkR j k := funext fun a => Fin.ext (by
    match a with
    | ⟨0, _⟩ => exact mm_rhs0 _ _
    | ⟨1, _⟩ => exact (mm_rhs1 _ _).trans hk)
  rw [el, er, shapeCast_self, shapeCast_self]

/-- The output array as one function of the operand arrays: entry (s, d) is ∑ₖ left (s, k) · right (d, k). -/
def prodOf (A : (⟨S2048x11008, .bf16⟩ : BufTy).Contents (Elt Ideal)) (B : (⟨S4096x11008, .bf16⟩ : BufTy).Contents (Elt Ideal)) :
    (⟨S2048x4096, .f32⟩ : BufTy).Contents (Elt Ideal) :=
  fun i => ∑ k : Fin 11008, A (rowL i k) * B (rowR i k)

theorem hz2 : (![0, 0] : Fin 2 → Nat) = fun _ => 0 := funext fun a => by fin_cases a <;> rfl

/-- The printed index maps, decided over the 64 points: the left window follows the output's block row and sits at
    block column 0; the right window follows the output's block column and sits at block column 0. -/
theorem idx_facts1 : ∀ t : Fin cfg1.N,
    win1_0.index t (0 : Fin 2) = win1_2.index t (0 : Fin 2) ∧ win1_0.index t (1 : Fin 2) = 0
    ∧ win1_1.index t (0 : Fin 2) = win1_2.index t (1 : Fin 2) ∧ win1_1.index t (1 : Fin 2) = 0 :=
  (by decide +kernel : ∀ t : Fin grid1.N, _)

/-- Every block of the 4 × 16 tiling of the output is some point's. -/
theorem idx_onto1 : ∀ (q0 : Fin 4) (q1 : Fin 16), ∃ t : Fin cfg1.N, win1_2.index t = ![q0.val, q1.val] :=
  (by decide +kernel : ∀ (q0 : Fin 4) (q1 : Fin 16), ∃ t : Fin grid1.N, win1_2.index t = ![q0.val, q1.val])

variable (V : (c : Dev nD) → (b : Ref sig .tc) → Buf (Elt Ideal) ((c : Thread nD τ).loc b))

/-- What point `t` writes back is block `t` of `prodOf` of the operand arrays as the region finds them. -/
theorem flushed1_eq (c : Dev nD) (t : Fin cfg1.N) :
    (dat1 V c).flushed 2 t = ((cfg1.win 2).blk t).view.read (Elt Ideal) (prodOf (V c main_v1_0) (V c main_v3)) := by
  show (cfg1.win 2).cut (grid1.coords t) ((dat1 V c).after 2 t) = _
  rw [after1_2]
  unfold out1_2
  rw [View.canon_unit_zero hz2]
  simp only [View.ld_unit_zero (S := S512x11008) hz2, View.ld_unit_zero (S := S256x11008) hz2]
  obtain ⟨e0, e1, e2, e3⟩ := idx_facts1 t
  funext j
  show k1_pay1 (F := Ideal) (iblk1 V c 0 t) (iblk1 V c 1 t) j = prodOf (V c main_v1_0) (V c main_v3) (((cfg1.win 2).blk t).view.emb j)
  refine (pay_matmul (iblk1 V c 0 t) (iblk1 V c 1 t) j).trans ?_
  unfold prodOf
  refine Finset.sum_congr rfl fun k _ => ?_
  have hL : (iblk1 V c 0 t : FVec Ideal S512x11008 .bf16) (blkL j k) = V c main_v1_0 (rowL (((cfg1.win 2).blk t).view.emb j) k) := by
    show V c main_v1_0 (((cfg1.win 0).blk t).view.emb (blkL j k)) = _
    refine congrArg (V c main_v1_0) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 11008 + 1 * k.val = k.val; omega
  have hR : (iblk1 V c 1 t : FVec Ideal S256x11008 .bf16) (blkR j k) = V c main_v3 (rowR (((cfg1.win 2).blk t).view.emb j) k) := by
    show V c main_v3 (((cfg1.win 1).blk t).view.emb (blkR j k)) = _
    refine congrArg (V c main_v3) (funext fun a => Fin.ext ?_)
    match a with
    | ⟨0, _⟩ => show win1_1.index t (0 : Fin 2) * 256 + 1 * (j 1).val = win1_2.index t (1 : Fin 2) * 256 + 1 * (j 1).val; omega
    | ⟨1, _⟩ => show win1_1.index t (1 : Fin 2) * 11008 + 1 * k.val = k.val; omega
  rw [hL, hR]

/-- An index of the output is in point `t`'s block iff each coordinate is in the block's range on its axis. -/
theorem mem_blk1 (t : Fin cfg1.N) (i : S2048x4096.Idx) :
    i ∈ ((cfg1.win 2).blk t).view.set ↔ ∀ a : Fin 2, win1_2.index t a * S512x256.size a ≤ (i a).val ∧ (i a).val < win1_2.index t a * S512x256.size a + S512x256.size a := by
  show i ∈ ((View.whole main_v4).slice (win1_2.rect t)).set ↔ _
  rw [View.set_slice_whole, Rect.mem_set_unit]
  exact Iff.rfl

/-- Every index of the output lies in some point's block: the point whose block row is s / 512 and block column d / 256. -/
theorem cover1 (i : S2048x4096.Idx) : ∃ t : Fin cfg1.N, (cfg1.win 2).flush t = true ∧ i ∈ ((cfg1.win 2).blk t).view.set := by
  have hi0 : (i 0).val < 2048 := (i 0).isLt
  have hi1 : (i 1).val < 4096 := (i 1).isLt
  obtain ⟨t, ht⟩ := idx_onto1 ⟨(i 0).val / 512, by omega⟩ ⟨(i 1).val / 256, by omega⟩
  have q0 : win1_2.index t (0 : Fin 2) = (i 0).val / 512 := congrFun ht 0
  have q1 : win1_2.index t (1 : Fin 2) = (i 1).val / 256 := congrFun ht 1
  refine ⟨t, flush1_2 t, ?_⟩
  rw [mem_blk1]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 256 ≤ (i 1).val ∧ (i 1).val < win1_2.index t (1 : Fin 2) * 256 + 256; omega

/-- So after the region its output array holds `prodOf` of the two operand arrays it found. -/
theorem product_array (c : Dev nD) : (dat1 V c).arrAt 2 cfg1.N = prodOf (V c main_v1_0) (V c main_v3) :=
  (dat1 V c).arrAt_eq_of_cover 2 (prodOf (V c main_v1_0) (V c main_v3)) (fun t _ => flushed1_eq V c t) cover1

end Cert.KernelIdeal.Results

end
-- ==== Proof.CastCount.lean ====
/-
  Region 0, cast and count: its two output arrays as functions of the array x it finds (2048 rows, 11008 columns).

  The grid has 43 points; point t handles the 256 columns 256t … 256t+255, all 2048 rows. It stores the block of x
  itself, narrowed to bf16, into the same block of the cast array, and into block t of the 1 × 11008 count row the
  column sums of the 0/1 indicator "entry > 0" (the comparison's bit widened to a 32-bit word, converted to a float,
  summed over the 2048 rows from zero). At the ideal values narrowing is the identity and the lane sum is the plain sum.
  The blocks of each output tile it, so the cast array is x entry by entry and the count row at column f is the number
  of rows s with x (s, f) > 0, as a sum of 0/1 reals.
-/
import proofs.«168756_j10806137716759_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Results

open Cert.KernelIdeal Cert.KernelIdeal.Gen
open Idealize.ShloMosaic Idealize.ShloMosaic.TcCoe Idealize.SL.Sem
open Idealize.ShloMosaic.Pipeline (Dat)

/-- The comparison bit "x > 0" at the ideal values, against the zero pattern the body splats. -/
def posBit (x : EReal) : BitVec 1 :=
  FloatOps.cmpf (F := Ideal) (φ := .f32) .ogt x (Scalar.ofBits (F := Ideal) .f32 0x00000000#32)

/-- The same as a real: the bit widened to a 32-bit word, read as a signed integer (0 or 1). -/
def posReal (x : EReal) : EReal := ((((posBit x).setWidth 32).toInt : ℝ) : EReal)

/-- Inside a point's block: row `s` at the column of the count block's index `y`. -/
abbrev cell (s : Fin 2048) (y : S1x256.Idx) : S2048x256.Idx := fun a => match a with
  | ⟨0, _⟩ => ⟨s.val, s.isLt⟩
  | ⟨1, _⟩ => ⟨(y 1).val, (y 1).isLt⟩

/-- In the whole array: row `s` at the column of the count row's index `i`. -/
abbrev colAt (s : Fin 2048) (i : S1x11008.Idx) : S2048x11008.Idx := fun a => match a with
  | ⟨0, _⟩ => ⟨s.val, s.isLt⟩
  | ⟨1, _⟩ => ⟨(i 1).val, (i 1).isLt⟩

/-- The value stored into the cast block is the loaded block itself: narrowing is the identity at the ideal values. -/
theorem pay_cast (x0 : FVec Ideal S2048x256 .f32) (j : S2048x256.Idx) : k0_pay2 (F := Ideal) x0 j = x0 j := by
  unfold k0_pay2 k0_pay1
  rw [shapeCast_self]
  rfl

/-- The value stored into the count block, at column `y`: the sum over the 2048 rows of the 0/1 indicator. -/
theorem pay_count (x0 : FVec Ideal S2048x256 .f32) (y : S1x256.Idx) :
    k0_pay3 (F := Ideal) x0 y = ∑ s : Fin 2048, posReal (x0 (cell s y)) := by
  unfold k0_pay3 k0_pay1
  refine (shapeCast_addUnit_apply ![256] _ shapeCasts_S256_S1x256 y).trans ?_
  refine (Ideal.multiReduction_add_single _ 0x00000000#32 reduces_S2048x256_S256 (.inl rfl) rfl (fun a => y a.succ)).trans ?_
  show ∑ s : Fin 2048, _ = _
  refine Finset.sum_congr rfl fun s _ => ?_
  rw [shapeCast_self]
  show posReal (x0 (reduces_S2048x256_S256.lift (fun a => y a.succ) s)) = _
  refine congrArg (fun k => posReal (x0 k)) (funext fun a => Fin.ext ?_)
  match a with
  | ⟨0, _⟩ => rfl
  | ⟨1, _⟩ => rfl

/-- The cast array as a function of x: x itself, narrowed (the identity at the ideal values). -/
def castOf (A : (⟨S2048x11008, .f32⟩ : BufTy).Contents (Elt Ideal)) : (⟨S2048x11008, .bf16⟩ : BufTy).Contents (Elt Ideal) :=
  truncf (F := Ideal) .bf16 A bitsLt_bf16_f32

/-- The count row as a function of x: at column f the sum over the rows s of the 0/1 indicator of x (s, f) > 0. -/
def countOf (A : (⟨S2048x11008, .f32⟩ : BufTy).Contents (Elt Ideal)) : (⟨S1x11008, .f32⟩ : BufTy).Contents (Elt Ideal) :=
  fun i => ∑ s : Fin 2048, posReal (A (colAt s i))

theorem hz0 : (![0, 0] : Fin 2 → Nat) = fun _ => 0 := funext fun a => by fin_cases a <;> rfl

/-- The printed index maps, decided over the 43 points: every window sits at block row 0 and block column t. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Every one of the 43 column blocks is some point's. -/
theorem idx_onto0 : ∀ q : Fin 43, ∃ t : Fin cfg0.N, t.val = q.val :=
  (by decide +kernel : ∀ q : Fin 43, ∃ t : Fin grid0.N, t.val = q.val)

variable (V : (c : Dev nD) → (b : Ref sig .tc) → Buf (Elt Ideal) ((c : Thread nD τ).loc b))

/-- What point `t` writes back to the cast array is block `t` of `castOf x`. -/
theorem flushed0_cast (c : Dev nD) (t : Fin cfg0.N) :
    (dat0 V c).flushed 1 t = ((cfg0.win 1).blk t).view.read (Elt Ideal) (castOf (V c main_v0)) := by
  show (cfg0.win 1).cut (grid0.coords t) ((dat0 V c).after 1 t) = _
  rw [after0_1]
  unfold out0_1
  rw [View.canon_unit_zero hz0]
  simp only [View.ld_unit_zero (S := S2048x256) hz0]
  obtain ⟨e0, e1, e2, e3, e4, e5⟩ := idx_facts0 t
  funext j
  show k0_pay2 (F := Ideal) (iblk0 V c 0 t) j = castOf (V c main_v0) (((cfg0.win 1).blk t).view.emb j)
  refine (pay_cast (iblk0 V c 0 t) j).trans ?_
  show V c main_v0 (((cfg0.win 0).blk t).view.emb j) = V c main_v0 (((cfg0.win 1).blk t).view.emb j)
  refine congrArg (V c main_v0) (funext fun a => Fin.ext ?_)
  match a with
  | ⟨0, _⟩ => show win0_0.index t (0 : Fin 2) * 2048 + 1 * (j 0).val = win0_1.index t (0 : Fin 2) * 2048 + 1 * (j 0).val; omega
  | ⟨1, _⟩ => show win0_0.index t (1 : Fin 2) * 256 + 1 * (j 1).val = win0_1.index t (1 : Fin 2) * 256 + 1 * (j 1).val; omega

/-- What point `t` writes back to the count row is block `t` of `countOf x`. -/
theorem flushed0_count (c : Dev nD) (t : Fin cfg0.N) :
    (dat0 V c).flushed 2 t = ((cfg0.win 2).blk t).view.read (Elt Ideal) (countOf (V c main_v0)) := by
  show (cfg0.win 2).cut (grid0.coords t) ((dat0 V c).after 2 t) = _
  rw [after0_2]
  unfold out0_2
  rw [View.canon_unit_zero hz0]
  simp only [View.ld_unit_zero (S := S2048x256) hz0]
  obtain ⟨e0, e1, e2, e3, e4, e5⟩ := idx_facts0 t
  funext y
  show k0_pay3 (F := Ideal) (iblk0 V c 0 t) y = countOf (V c main_v0) (((cfg0.win 2).blk t).view.emb y)
  refine (pay_count (iblk0 V c 0 t) y).trans ?_
  unfold countOf
  refine Finset.sum_congr rfl fun s _ => ?_
  show posReal (V c main_v0 (((cfg0.win 0).blk t).view.emb (cell s y))) = _
  refine congrArg (fun k => posReal (V c main_v0 k)) (funext fun a => Fin.ext ?_)
  match a with
  | ⟨0, _⟩ => show win0_0.index t (0 : Fin 2) * 2048 + 1 * s.val = s.val; omega
  | ⟨1, _⟩ => show win0_0.index t (1 : Fin 2) * 256 + 1 * (y 1).val = win0_2.index t (1 : Fin 2) * 256 + 1 * (y 1).val; omega

/-- Membership in a point's block of the cast array, and of the count row, coordinate by coordinate. -/
theorem mem_blk0_cast (t : Fin cfg0.N) (i : S2048x11008.Idx) :
    i ∈ ((cfg0.win 1).blk t).view.set ↔ ∀ a : Fin 2, win0_1.index t a * S2048x256.size a ≤ (i a).val ∧ (i a).val < win0_1.index t a * S2048x256.size a + S2048x256.size a := by
  show i ∈ ((View.whole main_v1_0).slice (win0_1.rect t)).set ↔ _
  rw [View.set_slice_whole, Rect.mem_set_unit]
  exact Iff.rfl
theorem mem_blk0_count (t : Fin cfg0.N) (i : S1x11008.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v1_1).slice (win0_2.rect t)).set ↔ _
  rw [View.set_slice_whole, Rect.mem_set_unit]
  exact Iff.rfl

/-- Every index of the cast array, and of the count row, lies in the block of the point t = column / 256. -/
theorem cover0_cast (i : S2048x11008.Idx) : ∃ t : Fin cfg0.N, (cfg0.win 1).flush t = true ∧ i ∈ ((cfg0.win 1).blk t).view.set := by
  have hi0 : (i 0).val < 2048 := (i 0).isLt
  have hi1 : (i 1).val < 11008 := (i 1).isLt
  obtain ⟨t, ht⟩ := idx_onto0 ⟨(i 1).val / 256, by omega⟩
  have ht' : t.val = (i 1).val / 256 := ht
  obtain ⟨e0, e1, e2, e3, e4, e5⟩ := idx_facts0 t
  refine ⟨t, flush0_1 t, ?_⟩
  rw [mem_blk0_cast]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 256 ≤ (i 1).val ∧ (i 1).val < win0_1.index t (1 : Fin 2) * 256 + 256; omega
theorem cover0_count (i : S1x11008.Idx) : ∃ t : Fin cfg0.N, (cfg0.win 2).flush t = true ∧ i ∈ ((cfg0.win 2).blk t).view.set := by
  have hi0 : (i 0).val < 1 := (i 0).isLt
  have hi1 : (i 1).val < 11008 := (i 1).isLt
  obtain ⟨t, ht⟩ := idx_onto0 ⟨(i 1).val / 256, by omega⟩
  have ht' : t.val = (i 1).val / 256 := ht
  obtain ⟨e0, e1, e2, e3, e4, e5⟩ := idx_facts0 t
  refine ⟨t, flush0_2 t, ?_⟩
  rw [mem_blk0_count]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 256 ≤ (i 1).val ∧ (i 1).val < win0_2.index t (1 : Fin 2) * 256 + 256; omega

/-- So after the region the cast array holds `castOf x` and the count row `countOf x`, x the array the region found. -/
theorem cast_array (c : Dev nD) : (dat0 V c).arrAt 1 cfg0.N = castOf (V c main_v0) :=
  (dat0 V c).arrAt_eq_of_cover 1 (castOf (V c main_v0)) (fun t _ => flushed0_cast V c t) cover0_cast
theorem count_array (c : Dev nD) : (dat0 V c).arrAt 2 cfg0.N = countOf (V c main_v0) :=
  (dat0 V c).arrAt_eq_of_cover 2 (countOf (V c main_v0)) (fun t _ => flushed0_count V c t) cover0_count

end Cert.KernelIdeal.Results

end
-- ==== Proof.LibCountLaw.lean ====
/-
  Counting by integers and counting by reals agree.

  One side counts a column's positive entries by adding the one-bit comparison results, widened to 32-bit words, in
  32-bit arithmetic, and converts the final word (read as a signed integer) to a real. The other side converts each
  widened word to a real first (0 or 1) and adds the reals. The two agree as long as the 32-bit sum cannot wrap or turn
  negative: with fewer than 2³¹ summands, each 0 or 1, the running sum stays below 2³¹.
-/
import Idealize.ShloMosaic.PureOps.Reduce
import Idealize.ShloMosaic.PureOps.Ideal

namespace Cert.CountLaw

open Idealize.ShloMosaic

/-- The extended-real image of a finite sum of reals is the sum of the images. -/
theorem coe_sum {ι : Type} (S : Finset ι) (r : ι → ℝ) : ((∑ k ∈ S, r k : ℝ) : EReal) = ∑ k ∈ S, (r k : EReal) := by
  classical
  induction S using Finset.induction_on with
  | empty => simp
  | insert a S ha ih => rw [Finset.sum_insert ha, Finset.sum_insert ha, EReal.coe_add, ih]

/-- A one-bit word widened to 32 bits is 0 or 1 as a natural number, and the same as a signed integer. -/
theorem toNat_widen_le (b : BitVec 1) : (b.setWidth 32).toNat ≤ 1 := by
  rcases BitVec.eq_zero_or_eq_one b with h | h <;> subst h <;> decide
theorem toInt_widen (b : BitVec 1) : (b.setWidth 32).toInt = ((b.setWidth 32).toNat : ℤ) := by
  rcases BitVec.eq_zero_or_eq_one b with h | h <;> subst h <;> decide

/-- The 32-bit sum of fewer than 2³¹ words, each 0 or 1, is the plain sum of their values: nothing wraps. -/
theorem fold_toNat {ι : Type} [DecidableEq ι] (S : Finset ι) (g : ι → BitVec 32) (hg : ∀ k, (g k).toNat ≤ 1)
    (hS : S.card < 2147483648) : (S.fold IntOp.addi 0#32 g).toNat = ∑ k ∈ S, (g k).toNat := by
  induction S using Finset.induction_on with
  | empty => rfl
  | insert a S ha ih =>
    rw [Finset.card_insert_of_notMem ha] at hS
    have ih' := ih (by omega)
    have hb : ∑ k ∈ S, (g k).toNat ≤ S.card := by
      calc ∑ k ∈ S, (g k).toNat ≤ ∑ _k ∈ S, 1 := Finset.sum_le_sum fun k _ => hg k
        _ = S.card := by simp
    rw [Finset.fold_insert ha, Finset.sum_insert ha]
    show (g a + S.fold IntOp.addi 0#32 g).toNat = _
    rw [BitVec.toNat_add, ih']
    have := hg a
    omega

/-- THE LAW: for fewer than 2³¹ one-bit words, the 32-bit sum of their widenings, read signed and made a real, is the
    sum of the widenings each read signed and made a real. -/
theorem count_law {n : Nat} (hn : n < 2147483648) (b : Fin n → BitVec 1) :
    ((((Finset.univ : Finset (Fin n)).fold IntOp.addi 0#32 (fun k => (b k).setWidth 32)).toInt : ℝ) : EReal)
      = ∑ k : Fin n, ((((b k).setWidth 32).toInt : ℝ) : EReal) := by
  have hN := fold_toNat (Finset.univ : Finset (Fin n)) (fun k => (b k).setWidth 32) (fun k => toNat_widen_le (b k))
    (by rw [Finset.card_univ, Fintype.card_fin]; exact hn)
  have hle : ∑ k : Fin n, ((b k).setWidth 32).toNat ≤ n := by
    calc ∑ k : Fin n, ((b k).setWidth 32).toNat ≤ ∑ _k : Fin n, 1 := Finset.sum_le_sum fun k _ => toNat_widen_le (b k)
      _ = n := by simp
  have hI : ((Finset.univ : Finset (Fin n)).fold IntOp.addi 0#32 (fun k => (b k).setWidth 32)).toInt
      = ((∑ k : Fin n, ((b k).setWidth 32).toNat : ℕ) : ℤ) := by
    rw [BitVec.toInt_eq_toNat_of_lt (by rw [hN]; omega), hN]
  rw [hI, ← coe_sum]
  refine congrArg (fun r : ℝ => (r : EReal)) ?_
  push_cast
  refine Finset.sum_congr rfl fun k _ => ?_
  rw [toInt_widen]
  push_cast
  rfl

end Cert.CountLaw
-- ==== Proof.RefValue.lean ====
/-
  The reference's per-neuron count vector, read at an index.

  The reference takes x with its unit batch axis dropped, applies relu (the maximum with 0), compares with 0, widens the
  comparison bit to a 32-bit integer, adds the integers down the 2048 rows in 32-bit arithmetic, and converts the sum to
  a float. On the extended reals max (a, 0) > 0 exactly when a > 0, and 2048 zero-or-one words cannot wrap a 32-bit sum,
  so the count at column f is the sum over the rows s of the 0/1 indicator of x (0, s, f) > 0, as a sum of reals.
-/
import proofs.«168756_j10806137716759_2_alg».proof.Proof.RefReadPatched
import proofs.«168756_j10806137716759_2_alg».proof.Proof.LibCountLaw
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem

/-- Row `s` of x at the column the count vector's index `i` names (the batch coordinate is 0). -/
abbrev srcIdx (s : Fin 2048) (i : S11008.Idx) : S1x2048x11008.Idx := fun a => match a with
  | ⟨0, _⟩ => ⟨0, Nat.one_pos⟩
  | ⟨1, _⟩ => ⟨s.val, s.isLt⟩
  | ⟨2, _⟩ => ⟨(i 0).val, (i 0).isLt⟩

/-- On the extended reals relu (a) > 0 exactly when a > 0: the two comparison bits are one. -/
theorem cmp_relu (a : EReal) : Ideal.cmp .ogt (max a 0) 0 = Ideal.cmp .ogt a 0 := by
  unfold Ideal.cmp
  exact congrArg BitVec.ofBool (decide_eq_decide.mpr (by simp [lt_max_iff]))

/-- The reference's count at column `i`: the sum over the rows of the 0/1 indicator of x > 0, each indicator the
    comparison bit widened to a word, read signed, made a real. -/
theorem ref_count_apply (x : (⟨S1x2048x11008, .f32⟩ : BufTy).Contents (Elt Ideal)) (i : S11008.Idx) :
    val_main_v8 (F := Ideal) x i
      = ∑ s : Fin 2048, ((((Ideal.cmp .ogt (x (srcIdx s i)) 0).setWidth 32).toInt : ℝ) : EReal) := by
  have hR : S2048x11008.Reduces [0] S11008 := by decide
  have h7 : val_main_v7 (F := Ideal) x i
      = (Finset.univ : Finset (Fin 2048)).fold IntOp.addi 0#32 (fun s => (Ideal.cmp .ogt (x (srcIdx s i)) 0).setWidth 32) := by
    unfold val_main_v7
    refine (Host.reduce_eq_fold_single IntOp.addi (val_main_v6 (F := Ideal) x) (val_main_c (F := Ideal))
      reducesTo_S2048x11008_S11008_d0 hR h_S_ i).trans ?_
    show (Finset.univ : Finset (Fin 2048)).fold IntOp.addi 0#32 (fun s => val_main_v6 (F := Ideal) x (hR.lift i s)) = _
    refine congrArg (fun g => (Finset.univ : Finset (Fin 2048)).fold IntOp.addi 0#32 g) (funext fun s => ?_)
    rw [val_main_v6_apply, val_main_v5_apply, val_main_v2_apply, val_main_v1_apply, val_main_v4_apply, val_main_call0_v0_apply,
      val_main_cst_0_apply, val_main_call0_cst_apply]
    show (Ideal.cmp .ogt (max (x (idx_main_v1 (hR.lift i s))) (Ideal.ofBits .f32 0x00000000#32)) (Ideal.ofBits .f32 0x00000000#32)).setWidth 32 = _
    rw [Ideal.ofBits_zero_f32, cmp_relu]
    refine congrArg (fun k => (Ideal.cmp .ogt (x k) 0).setWidth 32) (funext fun a => Fin.ext ?_)
    have hs : s.val < 2048 := s.isLt
    have hi : (i 0).val < 11008 := (i 0).isLt
    match a with
    | ⟨0, _⟩ => rfl
    | ⟨1, _⟩ => show (s.val * 11008 + (i 0).val) / 11008 % 2048 = s.val; omega
    | ⟨2, _⟩ => show (s.val * 11008 + (i 0).val) % 11008 = (i 0).val; omega
  rw [val_main_v8_apply, h7]
  exact Cert.CountLaw.count_law (n := 2048) (by norm_num) (fun s => Ideal.cmp .ogt (x (srcIdx s i)) 0)

end Cert.ReferenceIdeal.RefValue

end
-- ==== Proof.Bridge.lean ====
/-
  The two programs compute one pair of functions of (x, W).

  Product. The kernel's first result at (0, s, d) is region 1's output at (s, d): ∑ₖ left (s, k) · right (d, k), where
  left is region 0's cast of x with the batch axis dropped (the identity on values) and right is the host's cast of W
  (the identity too). The reference's dot_general contracts x's last axis with W's last axis: at (b, s, d) it is
  ∑ₖ x (b, s, k) · W (d, k), and b = 0. The two sums have equal terms, in the same order.

  Mask. Both programs apply the same tail (sum, divide by 11008, times 0.95, floor, broadcast, compare) to a count
  vector. The kernel's count at column f is ∑ₛ [x (0, s, f) > 0] with each indicator a real; the reference's is the
  32-bit integer count of [relu x (0, s, f) > 0] converted at the end. These are equal (the counting law and
  relu a > 0 ⟺ a > 0), so the masks are equal. No step uses finiteness of the inputs: only sums of equal terms and a
  comparison are involved.
-/
import proofs.«168756_j10806137716759_2_alg».proof.Defs
import proofs.«168756_j10806137716759_2_alg».proof.Proof.Gen.Pre_finite_inputs
import proofs.«168756_j10806137716759_2_alg».proof.Proof.KernelRun
import proofs.«168756_j10806137716759_2_alg».proof.Proof.HostFold
import proofs.«168756_j10806137716759_2_alg».proof.Proof.Matmul
import proofs.«168756_j10806137716759_2_alg».proof.Proof.CastCount
import proofs.«168756_j10806137716759_2_alg».proof.Proof.RefValue
import Idealize.ShloMosaic.Lib.Pipeline.Value
import Idealize.ShloMosaic.Lib.ValueIdx
import Idealize.ShloMosaic.PureOps.Ideal.Laws

set_option maxRecDepth 16384

noncomputable section

namespace Cert.Proof.Bridge

open Idealize.ShloMosaic Idealize.ShloMosaic.TcCoe Idealize.SL.Sem
open Cert.KernelIdeal.Results

/-- The (row, column) pair of an index of the product with its unit batch axis. -/
abbrev pairOf (i : Cert.KernelIdeal.S1x2048x4096.Idx) : Cert.KernelIdeal.S2048x4096.Idx := fun a => match a with
  | ⟨0, _⟩ => ⟨(i 1).val, (i 1).isLt⟩
  | ⟨1, _⟩ => ⟨(i 2).val, (i 2).isLt⟩

/-- The kernel's indicator real is the comparison bit of a > 0 widened, read signed, made a real. -/
theorem posReal_eq (a : EReal) : posReal a = ((((Ideal.cmp .ogt a 0).setWidth 32).toInt : ℝ) : EReal) := by
  unfold posReal posBit
  rw [Ideal.cmpf_def]
  show ((((Ideal.cmp .ogt a (Ideal.ofBits .f32 0x00000000#32)).setWidth 32).toInt : ℝ) : EReal) = _
  rw [Ideal.ofBits_zero_f32]

/-- PRODUCT: the kernel's first result as a function of (x, W) is the reference's dot_general of (x, W). -/
theorem product_eq (x : (⟨Cert.KernelIdeal.S1x2048x11008, .f32⟩ : BufTy).Contents (Elt Ideal))
    (W : (⟨Cert.KernelIdeal.S4096x11008, .f32⟩ : BufTy).Contents (Elt Ideal)) :
    broadcastInDim Cert.KernelIdeal.S1x2048x4096 ![1, 2] Cert.KernelIdeal.Gen.bcast_S2048x4096_S1x2048x4096_1_2
        (prodOf (castOf (shapeCast Cert.KernelIdeal.S2048x11008 x Cert.KernelIdeal.Gen.shapeCasts_S1x2048x11008_S2048x11008))
          (truncf (F := Ideal) .bf16 W Cert.KernelIdeal.Gen.bitsLt_bf16_f32))
      = Cert.ReferenceIdeal.ReadP.val_main_v0 (F := Ideal) x W := by
  funext i
  rw [Cert.ReferenceIdeal.ReadP.val_main_v0_apply]
  refine (broadcastInDim_apply ![1, 2] Cert.KernelIdeal.Gen.bcast_S2048x4096_S1x2048x4096_1_2 _ i (pairOf i) (fun a => ?_)).trans ?_
  · match a with
    | ⟨0, _⟩ => rfl
    | ⟨1, _⟩ => rfl
  unfold prodOf
  refine Finset.sum_congr rfl fun k _ => ?_
  have h0 : (i 0).val < 1 := (i 0).isLt
  have h1 : (i 1).val < 2048 := (i 1).isLt
  have hk : k.val < 11008 := k.isLt
  have hA : castOf (shapeCast Cert.KernelIdeal.S2048x11008 x Cert.KernelIdeal.Gen.shapeCasts_S1x2048x11008_S2048x11008) (rowL (pairOf i) k)
      = x (Cert.ReferenceIdeal.ReadP.lidx_main_v0 i k) := by
    show Cert.ReferenceIdeal.ReadP.val_main_v1 (F := Ideal) x (rowL (pairOf i) k) = _
    rw [Cert.ReferenceIdeal.ReadP.val_main_v1_apply]
    refine congrArg x (funext fun a => Fin.ext ?_)
    match a with
    | ⟨0, _⟩ => show 0 = (i 0).val; omega
    | ⟨1, _⟩ => show ((i 1).val * 11008 + k.val) / 11008 % 2048 = (i 1).val; omega
    | ⟨2, _⟩ => show ((i 1).val * 11008 + k.val) % 11008 = k.val; omega
  have hB : truncf (F := Ideal) .bf16 W Cert.KernelIdeal.Gen.bitsLt_bf16_f32 (rowR (pairOf i) k)
      = W (Cert.ReferenceIdeal.ReadP.ridx_main_v0 i k) := by
    show W (rowR (pairOf i) k) = _
    refine congrArg W (funext fun a => Fin.ext ?_)
    match a with
    | ⟨0, _⟩ => rfl
    | ⟨1, _⟩ => rfl
  rw [hA, hB]

/-- COUNTS: the kernel's count vector as a function of x is the reference's. -/
theorem counts_eq (x : (⟨Cert.KernelIdeal.S1x2048x11008, .f32⟩ : BufTy).Contents (Elt Ideal)) :
    shapeCast Cert.KernelIdeal.S11008
        (countOf (shapeCast Cert.KernelIdeal.S2048x11008 x Cert.KernelIdeal.Gen.shapeCasts_S1x2048x11008_S2048x11008))
        Cert.KernelIdeal.Gen.shapeCasts_S1x11008_S11008
      = Cert.ReferenceIdeal.ReadP.val_main_v8 (F := Ideal) x := by
  funext i
  rw [Cert.ReferenceIdeal.RefValue.ref_count_apply]
  refine (shapeCast_dropUnit_apply ![11008] _ Cert.KernelIdeal.Gen.shapeCasts_S1x11008_S11008 i).trans ?_
  unfold countOf
  refine Finset.sum_congr rfl fun s _ => ?_
  rw [posReal_eq]
  have hs : s.val < 2048 := s.isLt
  have hi : (i 0).val < 11008 := (i 0).isLt
  have hA : shapeCast Cert.KernelIdeal.S2048x11008 x Cert.KernelIdeal.Gen.shapeCasts_S1x2048x11008_S2048x11008
        (colAt s (Fin.cons ⟨0, Nat.one_pos⟩ i))
      = x (Cert.ReferenceIdeal.RefValue.srcIdx s i) := by
    show Cert.ReferenceIdeal.ReadP.val_main_v1 (F := Ideal) x (colAt s (Fin.cons ⟨0, Nat.one_pos⟩ i)) = _
    rw [Cert.ReferenceIdeal.ReadP.val_main_v1_apply]
    refine congrArg x (funext fun a => Fin.ext ?_)
    match a with
    | ⟨0, _⟩ => rfl
    | ⟨1, _⟩ => show (s.val * 11008 + (i 0).val) / 11008 % 2048 = s.val; omega
    | ⟨2, _⟩ => show (s.val * 11008 + (i 0).val) % 11008 = (i 0).val; omega
  rw [hA]

/-- MASK: the same tail of the same count vector. -/
theorem mask_eq (x : (⟨Cert.KernelIdeal.S1x2048x11008, .f32⟩ : BufTy).Contents (Elt Ideal)) :
    maskOf (F := Ideal) (shapeCast Cert.KernelIdeal.S11008
        (countOf (shapeCast Cert.KernelIdeal.S2048x11008 x Cert.KernelIdeal.Gen.shapeCasts_S1x2048x11008_S2048x11008))
        Cert.KernelIdeal.Gen.shapeCasts_S1x11008_S11008)
      = Cert.ReferenceIdeal.ReadP.val_main_v14 (F := Ideal) x := by
  rw [counts_eq]
  rfl

section Run

open Cert.KernelIdeal Cert.KernelIdeal.Gen

variable (m : (ℓ : Loc nD τ sig) → Buf (Elt Ideal) ℓ) (ρ : Dev nD → PrngReg)

/-- The fold at the product buffer is the reference's dot_general of the launch arguments. -/
theorem product_value (c : Dev nD) :
    (W5 m ρ c (Proc.devRef .tc main_v5) : (⟨S1x2048x4096, .f32⟩ : BufTy).Contents (Elt Ideal))
      = Cert.ReferenceIdeal.ReadP.val_main_v0 (F := Ideal) (m ((c : Thread nD τ).loc main_arg0)) (m ((c : Thread nD τ).loc main_arg1)) := by
  rw [W5_product, product_array (V3 m ρ) c, entry1_x, entry1_w, cast_array (V1 m ρ) c, entry0_x]
  exact product_eq _ _

/-- The fold at the mask buffer is the reference's mask of the launch argument x. -/
theorem mask_value (c : Dev nD) :
    (W5 m ρ c (Proc.devRef .tc main_v11) : (⟨S11008, .i1⟩ : BufTy).Contents (Elt Ideal))
      = Cert.ReferenceIdeal.ReadP.val_main_v14 (F := Ideal) (m ((c : Thread nD τ).loc main_arg0)) := by
  rw [W5_mask, count_array (V1 m ρ) c, entry0_x]
  exact mask_eq _

/-- The idealized kernel's run, read: both results at the reference's functions of the arguments, the arguments kept. -/
theorem kernel_value : θ_run defs (onTc (τ := τ) (main (F := Ideal))) ⟨m, fun _ => 0, ρ⟩ (fun r => ∀ c : Dev nD,
      r.2.mem ((c.tc : Thread nD τ).loc main_v5)
        = Cert.ReferenceIdeal.ReadP.val_main_v0 (F := Ideal) (m ((c.tc : Thread nD τ).loc main_arg0)) (m ((c.tc : Thread nD τ).loc main_arg1))
      ∧ r.2.mem ((c.tc : Thread nD τ).loc main_v11)
        = Cert.ReferenceIdeal.ReadP.val_main_v14 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (product_value m ρ c), (h c).2.1.trans (mask_value m ρ c), (h c).2.2⟩)
    (run_results (F := Ideal) m ρ)

end Run

/-- The two idealized programs, run from memories agreeing on (x, W), end with equal results and unchanged arguments. -/
theorem algebraic : Cert.algebraic_KernelIdeal_ReferenceIdeal := by
  intro m ρ m' ρ' _ hagree
  refine ⟨fun c => Cert.ReferenceIdeal.ReadP.val_main_v0 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.ReferenceIdeal.ReadP.val_main_v14 (F := Ideal)
      (m ((c.tc : Thread Cert.KernelIdeal.nD Cert.KernelIdeal.τ).loc Cert.KernelIdeal.main_arg0)),
    kernel_value m ρ, ?_⟩
  refine (θ_run Cert.ReferenceIdeal.defs _ _).mono (fun _ h c => ⟨?_, ?_, (h c).2.2⟩)
    (Cert.ReferenceIdeal.ValueP.run (F := Ideal) m' ρ')
  · rw [(h c).1, (hagree c).1, (hagree c).2]
    rfl
  · rw [(h c).2.1, (hagree c).1]
    exact Cert.ReferenceIdeal.ReadP.val_main_v14_eq _

end Cert.Proof.Bridge

end
-- ==== Proof.lean ====
/-
  The certificate of a dense projection with an activation-count mask, against its jnp reference.

  Inputs x : f32[1, 2048, 11008] and W : f32[4096, 11008]. Results: true_value = x · Wᵀ : f32[1, 2048, 4096] and
  neuron_mask : i1[11008], where mask f says whether the number of rows s with x (0, s, f) > 0 exceeds
  floor (mean of those counts · 0.95).

  The kernel computes this in two regions. The first reads x once, column block by column block: it narrows the block
  to bf16 for the matmul and counts each column's positive entries as a float sum of 0/1 indicators. The second
  multiplies 512-row blocks of the narrowed x by 256-row blocks of the narrowed W over the full contraction length
  11008, one output block per grid point. The reference is one dot_general, and an integer count of relu (x) > 0
  converted to float. Over the extended reals narrowing is the identity, a block product accumulated into zero is the
  plain sum of products, relu (a) > 0 exactly when a > 0, and 2048 zero-or-one words do not wrap a 32-bit sum; the
  mean-and-threshold tail is the same on both sides. So the two programs end with equal results (`algebraic`,
  Proof/Bridge.lean). The idealization rewrote nothing, so `preserves` is trivial. The three frames: the two kernels'
  are the generated several-region runs; the reference's is its run with the results dropped.
-/
import proofs.«168756_j10806137716759_2_alg».proof.Defs
import proofs.«168756_j10806137716759_2_alg».proof.Proof.Gen.Kernel
import proofs.«168756_j10806137716759_2_alg».proof.Proof.Gen.Kernel.Frame
import proofs.«168756_j10806137716759_2_alg».proof.Proof.Gen.KernelIdeal
import proofs.«168756_j10806137716759_2_alg».proof.Proof.Gen.KernelIdeal.Frame
import proofs.«168756_j10806137716759_2_alg».proof.Proof.Gen.ReferenceIdeal
import proofs.«168756_j10806137716759_2_alg».proof.Proof.Gen.Pre_finite_inputs
import proofs.«168756_j10806137716759_2_alg».proof.Proof.RefRunPatched
import proofs.«168756_j10806137716759_2_alg».proof.Proof.Bridge
import Idealize.ShloMosaic.Adequacy
import Idealize.ShloMosaic.Init

noncomputable section

namespace Cert.Proof

open Idealize.ShloMosaic Idealize.SL.Sem

/-- The printed kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with what it says about the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Proof.Bridge.algebraic⟩

end Cert.Proof

end
